-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384x128 : Shape := ⟨2, ![16384, 128]⟩
abbrev S256x2048 : Shape := ⟨2, ![256, 2048]⟩
abbrev S256 : Shape := ⟨1, ![256]⟩
abbrev S256x128 : Shape := ⟨2, ![256, 128]⟩
abbrev S768x256 : Shape := ⟨2, ![768, 256]⟩
abbrev S768 : Shape := ⟨1, ![768]⟩
abbrev S256x256 : Shape := ⟨2, ![256, 256]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg14 : FVec F S256 .f32) (main_arg15 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  main_v78

def fn_part3 {F : FTy → Type} [FloatOps F] (main_arg11 : FVec F S768 .f32) (main_arg12 : FVec F S256x256 .f32) (main_arg13 : FVec F S256 .f32) (main_arg14 : FVec F S256 .f32) (main_arg15 : FVec F S256 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S768 .f32) (main_arg8 : FVec F S256x256 .f32) (main_arg9 : FVec F S256 .f32) (main_arg10 : FVec F S768x256 .f32) (main_arg11 : FVec F S768 .f32) (main_arg12 : FVec F S256x256 .f32) (main_arg13 : FVec F S256 .f32) (main_arg14 : FVec F S256 .f32) (main_arg15 : FVec F S256 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S768x256 .f32 := Host.absf main_arg10
  let main_cst_18 : FVec F S_ .f32 := constant S_ .f32 0x7F800000#32
  let main_v50 : FVec F S768x256 .f32 := broadcastInDim S768x256 ![] bcast_S_S768x256 main_cst_18
  fn_part3 (F := F) main_arg11 main_arg12 main_arg13 main_arg14 main_arg15 main_v48 main_v49 main_v50

def fn_part1 {F : FTy → Type} [FloatOps F] (main_arg4 : FVec F S256x128 .f32) (main_arg5 : FVec F S256 .f32) (main_arg6 : FVec F S768x256 .f32) (main_arg7 : FVec F S768 .f32) (main_arg8 : FVec F S256x256 .f32) (main_arg9 : FVec F S256 .f32) (main_arg10 : FVec F S768x256 .f32) (main_arg11 : FVec F S768 .f32) (main_arg12 : FVec F S256x256 .f32) (main_arg13 : FVec F S256 .f32) (main_arg14 : FVec F S256 .f32) (main_arg15 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16384x2048 .f32) (main_arg1 : FVec F S16384x128 .f32) (main_arg2 : FVec F S256x2048 .f32) (main_arg3 : FVec F S256 .f32) (main_arg4 : FVec F S256x128 .f32) (main_arg5 : FVec F S256 .f32) (main_arg6 : FVec F S768x256 .f32) (main_arg7 : FVec F S768 .f32) (main_arg8 : FVec F S256x256 .f32) (main_arg9 : FVec F S256 .f32) (main_arg10 : FVec F S768x256 .f32) (main_arg11 : FVec F S768 .f32) (main_arg12 : FVec F S256x256 .f32) (main_arg13 : FVec F S256 .f32) (main_arg14 : FVec F S256 .f32) (main_arg15 : FVec F S256 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16384x2048 : Shape := ⟨2, ![16384, 2048]⟩
abbrev S16384x128 : Shape := ⟨2, ![16384, 128]⟩
abbrev S256x2048 : Shape := ⟨2, ![256, 2048]⟩
abbrev S256 : Shape := ⟨1, ![256]⟩
abbrev S256x128 : Shape := ⟨2, ![256, 128]⟩
abbrev S768x256 : Shape := ⟨2, ![768, 256]⟩
abbrev S768 : Shape := ⟨1, ![768]⟩
abbrev S256x256 : Shape := ⟨2, ![256, 256]⟩
abbrev S2048x256 : Shape := ⟨2, ![2048, 256]⟩
abbrev S128x256 : Shape := ⟨2, ![128, 256]⟩
abbrev S16384x512 : Shape := ⟨2, ![16384, 512]⟩
abbrev S512x2048 : Shape := ⟨2, ![512, 2048]⟩
abbrev S512x128 : Shape := ⟨2, ![512, 128]⟩
abbrev S512x512 : Shape := ⟨2, ![512, 512]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 27
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S16384x128, .f32⟩
  | .hbm, ⟨2, _⟩ => ⟨S256x2048, .f32⟩
  | .hbm, ⟨3, _⟩ => ⟨S256, .f32⟩
  | .hbm, ⟨4, _⟩ => ⟨S256x128, .f32⟩
  | .hbm, ⟨5, _⟩ => ⟨S256, .f32⟩
  | .hbm, ⟨6, _⟩ => ⟨S768x256, .f32⟩
  | .hbm, ⟨7, _⟩ => ⟨S768, .f32⟩
  | .hbm, ⟨8, _⟩ => ⟨S256x256, .f32⟩
  | .hbm, ⟨9, _⟩ => ⟨S256, .f32⟩
  | .hbm, ⟨10, _⟩ => ⟨S768x256, .f32⟩
  | .hbm, ⟨11, _⟩ => ⟨S768, .f32⟩
  | .hbm, ⟨12, _⟩ => ⟨S256x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S2048x256, .f32⟩
  | .hbm, ⟨17, _⟩ => ⟨S128x256, .f32⟩
  | .hbm, ⟨18, _⟩ => ⟨S256x256, .f32⟩
  | .hbm, ⟨19, _⟩ => ⟨S256x256, .f32⟩
  | .hbm, ⟨20, _⟩ => ⟨S256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S256, .f32⟩
  | .hbm, ⟨25, _⟩ => ⟨S256x256, .f32⟩
  | .hbm, ⟨26, _⟩ => ⟨S16384x512, .f32⟩
  | .local _ .vmem, ⟨0, _⟩ => ⟨S512x2048, .f32⟩
  | .local _ .vmem, ⟨1, _⟩ => ⟨S512x2048, .f32⟩
  | .local _ .vmem, ⟨2, _⟩ => ⟨S512x128, .f32⟩
  | .local _ .vmem, ⟨3, _⟩ => ⟨S512x128, .f32⟩
  | .local _ .vmem, ⟨4, _⟩ => ⟨S2048x256, .f32⟩
  | .local _ .vmem, ⟨5, _⟩ => ⟨S256, .f32⟩
  | .local _ .vmem, ⟨6, _⟩ => ⟨S128x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S512x512, .f32⟩
  | .local _ .vmem, ⟨19, _⟩ => ⟨S512x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S256x2048_S2048x256_1_0 : S256x2048.Transposes [1, 0] S2048x256
  transposes_S256x128_S128x256_1_0 : S256x128.Transposes [1, 0] S128x256
  slices_S768x256_S256x256_512_0 : S768x256.Slices ![512, 0] S256x256
  transposes_S256x256_S256x256_1_0 : S256x256.Transposes [1, 0] S256x256
  slices_S768_S256_512 : S768.Slices ![512] S256
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x128_S512x128_0_0 : ∀ a, (![0, 0] : Fin 2 → Nat) a + S512x128.size a ≤ S512x128.size a
  h_S512x128 : 0 < S512x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S256 : S256.ShapeCasts S256
  reduces_S512x256_S512 : S512x256.Reduces [1] S512
  shapeCasts_S512_S512x1 : S512.ShapeCasts S512x1
  broadcasts_S512x1_S512x256 : S512x1.Broadcasts S512x256
  inb_S512x512_S512x256_0_0 : ∀ a, (![0, 0] : Fin 2 → Nat) a + S512x256.size a ≤ S512x512.size a
  h_S512x256 : 0 < S512x256.numel
  inb_S512x512_S512x256_0_256 : ∀ a, (![0, 256] : Fin 2 → Nat) a + S512x256.size a ≤ S512x512.size a
  dot_S512x2048_S2048x256_S512x256_1_0_0_1_n_n_wf : DotDims.WF S512x2048 S2048x256 S512x256 [1] [0] [0] [1] [] []
  dot_S512x128_S128x256_S512x256_1_0_0_1_n_n_wf : DotDims.WF S512x128 S128x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S16384x128.size a
  hwx0_1 : ∀ i : grid0.Coords, EltTy.bits .f32 = 32 ∨ (Rect.block (s := S16384x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .f32 = 32 ∨ (Rect.block (s := S2048x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .f32 = 32 ∨ (Rect.block (s := S256x256) S256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S16384x512.size a
  hwx0_16 : ∀ i : grid0.Coords, EltTy.bits .f32 = 32 ∨ (Rect.block (s := S16384x512) S512x512.size (cc0_transform_16 i) (hinb0_16 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v10) S512x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384x128 : Shape := ⟨2, ![16384, 128]⟩
abbrev S256x2048 : Shape := ⟨2, ![256, 2048]⟩
abbrev S256 : Shape := ⟨1, ![256]⟩
abbrev S256x128 : Shape := ⟨2, ![256, 128]⟩
abbrev S768x256 : Shape := ⟨2, ![768, 256]⟩
abbrev S768 : Shape := ⟨1, ![768]⟩
abbrev S256x256 : Shape := ⟨2, ![256, 256]⟩
abbrev S2048x256 : Shape := ⟨2, ![2048, 256]⟩
abbrev S16384x256 : Shape := ⟨2, ![16384, 256]⟩
abbrev S1x256 : Shape := ⟨2, ![1, 256]⟩
abbrev S128x256 : Shape := ⟨2, ![128, 256]⟩
abbrev S_ : Shape := ⟨0, ![]⟩
abbrev S16384 : Shape := ⟨1, ![16384]⟩
abbrev S16384x1 : Shape := ⟨2, ![16384, 1]⟩
abbrev S16384x512 : Shape := ⟨2, ![16384, 512]⟩

abbrev nBuf : Space → Nat
  | .hbm => 111
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x128, .f32⟩
  | .hbm, ⟨2, _⟩ => ⟨S256x2048, .f32⟩
  | .hbm, ⟨3, _⟩ => ⟨S256, .f32⟩
  | .hbm, ⟨4, _⟩ => ⟨S256x128, .f32⟩
  | .hbm, ⟨5, _⟩ => ⟨S256, .f32⟩
  | .hbm, ⟨6, _⟩ => ⟨S768x256, .f32⟩
  | .hbm, ⟨7, _⟩ => ⟨S768, .f32⟩
  | .hbm, ⟨8, _⟩ => ⟨S256x256, .f32⟩
  | .hbm, ⟨9, _⟩ => ⟨S256, .f32⟩
  | .hbm, ⟨10, _⟩ => ⟨S768x256, .f32⟩
  | .hbm, ⟨11, _⟩ => ⟨S768, .f32⟩
  | .hbm, ⟨12, _⟩ => ⟨S256x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S2048x256, .f32⟩
  | .hbm, ⟨17, _⟩ => ⟨S16384x256, .f32⟩
  | .hbm, ⟨18, _⟩ => ⟨S1x256, .f32⟩
  | .hbm, ⟨19, _⟩ => ⟨S16384x256, .f32⟩
  | .hbm, ⟨20, _⟩ => ⟨S16384x256, .f32⟩
  | .hbm, ⟨21, _⟩ => ⟨S128x256, .f32⟩
  | .hbm, ⟨22, _⟩ => ⟨S16384x256, .f32⟩
  | .hbm, ⟨23, _⟩ => ⟨S1x256, .f32⟩
  | .hbm, ⟨24, _⟩ => ⟨S16384x256, .f32⟩
  | .hbm, ⟨25, _⟩ => ⟨S16384x256, .f32⟩
  | .hbm, ⟨26, _⟩ => ⟨S256x256, .f32⟩
  | .hbm, ⟨27, _⟩ => ⟨S256, .f32⟩
  | .hbm, ⟨28, _⟩ => ⟨S256x256, .f32⟩
  | .hbm, ⟨29, _⟩ => ⟨S16384x256, .f32⟩
  | .hbm, ⟨30, _⟩ => ⟨S1x256, .f32⟩
  | .hbm, ⟨31, _⟩ => ⟨S16384x256, .f32⟩
  | .hbm, ⟨32, _⟩ => ⟨S16384x256, .f32⟩
  | .hbm, ⟨33, _⟩ => ⟨S256x256, .f32⟩
  | .hbm, ⟨34, _⟩ => ⟨S16384x256, .f32⟩
  | .hbm, ⟨35, _⟩ => ⟨S1x256, .f32⟩
  | .hbm, ⟨36, _⟩ => ⟨S16384x256, .f32⟩
  | .hbm, ⟨37, _⟩ => ⟨S16384x256, .f32⟩
  | .hbm, ⟨38, _⟩ => ⟨S16384x256, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x256, .f32⟩
  | .hbm, ⟨55, _⟩ => ⟨S16384x256, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x256, .f32⟩
  | .hbm, ⟨61, _⟩ => ⟨S16384x256, .f32⟩
  | .hbm, ⟨62, _⟩ => ⟨S1x256, .f32⟩
  | .hbm, ⟨63, _⟩ => ⟨S16384x256, .f32⟩
  | .hbm, ⟨64, _⟩ => ⟨S16384x256, .f32⟩
  | .hbm, ⟨65, _⟩ => ⟨S1x256, .f32⟩
  | .hbm, ⟨66, _⟩ => ⟨S16384x256, .f32⟩
  | .hbm, ⟨67, _⟩ => ⟨S16384x256, .f32⟩
  | .hbm, ⟨68, _⟩ => ⟨S256x256, .f32⟩
  | .hbm, ⟨69, _⟩ => ⟨S256, .f32⟩
  | .hbm, ⟨70, _⟩ => ⟨S256x256, .f32⟩
  | .hbm, ⟨71, _⟩ => ⟨S16384x256, .f32⟩
  | .hbm, ⟨72, _⟩ => ⟨S1x256, .f32⟩
  | .hbm, ⟨73, _⟩ => ⟨S16384x256, .f32⟩
  | .hbm, ⟨74, _⟩ => ⟨S16384x256, .f32⟩
  | .hbm, ⟨75, _⟩ => ⟨S256x256, .f32⟩
  | .hbm, ⟨76, _⟩ => ⟨S16384x256, .f32⟩
  | .hbm, ⟨77, _⟩ => ⟨S1x256, .f32⟩
  | .hbm, ⟨78, _⟩ => ⟨S16384x256, .f32⟩
  | .hbm, ⟨79, _⟩ => ⟨S16384x256, .f32⟩
  | .hbm, ⟨80, _⟩ => ⟨S16384x256, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x256, .f32⟩
  | .hbm, ⟨88, _⟩ => ⟨S16384x256, .f32⟩
  | .hbm, ⟨89, _⟩ => ⟨S16384x256, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S_, .f32⟩
  | .hbm, ⟨94, _⟩ => ⟨S16384x1, .f32⟩
  | .hbm, ⟨95, _⟩ => ⟨S16384x1, .f32⟩
  | .hbm, ⟨96, _⟩ => ⟨S16384x256, .f32⟩
  | .hbm, ⟨97, _⟩ => ⟨S16384x256, .f32⟩
  | .hbm, ⟨98, _⟩ => ⟨S_, .f32⟩
  | .hbm, ⟨99, _⟩ => ⟨S16384x1, .f32⟩
  | .hbm, ⟨100, _⟩ => ⟨S16384x1, .f32⟩
  | .hbm, ⟨101, _⟩ => ⟨S16384x1, .f32⟩
  | .hbm, ⟨102, _⟩ => ⟨S16384x256, .f32⟩
  | .hbm, ⟨103, _⟩ => ⟨S16384x256, .f32⟩
  | .hbm, ⟨104, _⟩ => ⟨S1x256, .f32⟩
  | .hbm, ⟨105, _⟩ => ⟨S16384x256, .f32⟩
  | .hbm, ⟨106, _⟩ => ⟨S16384x256, .f32⟩
  | .hbm, ⟨107, _⟩ => ⟨S1x256, .f32⟩
  | .hbm, ⟨108, _⟩ => ⟨S16384x256, .f32⟩
  | .hbm, ⟨109, _⟩ => ⟨S16384x256, .f32⟩
  | .hbm, ⟨110, _⟩ => ⟨S16384x512, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_cst_0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_4 : Ref sig .tc := ⟨.hbm, 81, rfl⟩
abbrev main_v60 : Ref sig .tc := ⟨.hbm, 82, rfl⟩
abbrev main_v61 : Ref sig .tc := ⟨.hbm, 83, rfl⟩
abbrev main_cst_5 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_6 : Ref sig .tc := ⟨.hbm, 90, rfl⟩
abbrev main_v67 : Ref sig .tc := ⟨.hbm, 91, rfl⟩
abbrev main_v68 : Ref sig .tc := ⟨.hbm, 92, rfl⟩
abbrev main_cst_7 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_8 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]

class Facts₀ : Prop where
  transposes_S256x2048_S2048x256_1_0 : S256x2048.Transposes [1, 0] S2048x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S256x128_S128x256_1_0 : S256x128.Transposes [1, 0] S128x256
  slices_S768x256_S256x256_512_0 : S768x256.Slices ![512, 0] S256x256
  slices_S768_S256_512 : S768.Slices ![512] S256
  transposes_S256x256_S256x256_1_0 : S256x256.Transposes [1, 0] S256x256
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  concatenates_S16384x256_S16384x256_S16384x512_d1 : Shape.Concatenates [S16384x256, S16384x256] S16384x512 1
  dot_S16384x2048_S2048x256_S16384x256_1_0_0_1_n_n_wf : DotDims.WF S16384x2048 S2048x256 S16384x256 [1] [0] [0] [1] [] []
  dot_S16384x128_S128x256_S16384x256_1_0_0_1_n_n_wf : DotDims.WF S16384x128 S128x256 S16384x256 [1] [0] [0] [1] [] []
  dot_S16384x256_S256x256_S16384x256_1_0_0_1_n_n_wf : DotDims.WF S16384x256 S256x256 S16384x256 [1] [0] [0] [1] [] []

variable [Facts₀]

def dot_S16384x2048_S2048x256_S16384x256_1_0_0_1_n_n : DotDims S16384x2048 S2048x256 S16384x256 where
  lhsContracting := [1]
  rhsContracting := [0]
  lhsNonContracting := [0]
  rhsNonContracting := [1]
  lhsBatch := []
  rhsBatch := []
  wf := dot_S16384x2048_S2048x256_S16384x256_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.FusionSpec.lean ====
/-
  The mathematics both programs compute, one row at a time, on the extended reals.

  A row of the result depends on one row of the image embedding (2048 entries), one row of the tabular embedding
  (128 entries) and the weights. A dense layer sends a row a to (Σ_k a_k · Wt[k, c]) + b_c, with Wt the weight
  matrix already transposed (contracted axis first). Both embeddings are projected to width 256. Attention over a
  single key is the identity on the value, so "image attends to table" is two dense layers applied to the table
  projection (the value and the output projections), added to the image projection and layer-normalised; "table
  attends to image" is the same with the roles exchanged. Layer normalisation of a row x of width 256 is
  (x_c − μ) · rsqrt(σ² + ε) · g_c + β_c with μ = (Σ x)/256 and σ² = (Σ (x − μ)²)/256, the divisor 256 and ε being
  the same two words in both programs. The result row has width 512: the first normalised row then the second.
-/
import Idealize.ShloMosaic.Lib.ValueIdx
import Idealize.ShloMosaic.PureOps.Ideal

noncomputable section

namespace FusionSpec

open Idealize.ShloMosaic Idealize.ShloMosaic.ValueIdx

/-- A dense layer on a row: (Σ_k a_k · Wt[k, c]) + b_c, the weight matrix given with the contracted axis first. -/
def dense {K C : ℕ} (a : Fin K → EReal) (Wt : (⟨2, ![K, C]⟩ : Shape).Idx → EReal)
    (b : (⟨1, ![C]⟩ : Shape).Idx → EReal) (c : Fin C) : EReal :=
  (∑ k : Fin K, a k * Wt (ix2 k c)) + b (ix1 c)

/-- The divisor of the two means: the word of 256. -/
def width : EReal := Ideal.ofBits .f32 0x43800000#32

/-- The variance's offset: the word both programs print for 1e-5. -/
def eps : EReal := Ideal.ofBits .f32 0x3727C5AC#32

/-- The mean of a row of width 256. -/
def rowMean (x : Fin 256 → EReal) : EReal := Ideal.div (∑ k : Fin 256, x k) width

/-- The (biased) variance of a row of width 256. -/
def rowVar (x : Fin 256 → EReal) : EReal :=
  Ideal.div (∑ k : Fin 256, (x k - rowMean x) * (x k - rowMean x)) width

/-- Layer normalisation of a row with scale g and shift β. -/
def layerNorm (x : Fin 256 → EReal) (g β : (⟨1, ![256]⟩ : Shape).Idx → EReal) (c : Fin 256) : EReal :=
  (x c - rowMean x) * Ideal.rsqrt (rowVar x + eps) * g (ix1 c) + β (ix1 c)

/-- The weights, each matrix with its contracted axis first. -/
structure Weights where
  /-- image projection -/
  WiT : (⟨2, ![2048, 256]⟩ : Shape).Idx → EReal
  bi : (⟨1, ![256]⟩ : Shape).Idx → EReal
  /-- table projection -/
  WtT : (⟨2, ![128, 256]⟩ : Shape).Idx → EReal
  bt : (⟨1, ![256]⟩ : Shape).Idx → EReal
  /-- value and output projections of "image attends to table" -/
  WvImgT : (⟨2, ![256, 256]⟩ : Shape).Idx → EReal
  bvImg : (⟨1, ![256]⟩ : Shape).Idx → EReal
  WoImgT : (⟨2, ![256, 256]⟩ : Shape).Idx → EReal
  boImg : (⟨1, ![256]⟩ : Shape).Idx → EReal
  /-- value and output projections of "table attends to image" -/
  WvTabT : (⟨2, ![256, 256]⟩ : Shape).Idx → EReal
  bvTab : (⟨1, ![256]⟩ : Shape).Idx → EReal
  WoTabT : (⟨2, ![256, 256]⟩ : Shape).Idx → EReal
  boTab : (⟨1, ![256]⟩ : Shape).Idx → EReal
  /-- the shared layer normalisation's scale and shift -/
  g : (⟨1, ![256]⟩ : Shape).Idx → EReal
  β : (⟨1, ![256]⟩ : Shape).Idx → EReal

/-- The image row projected to width 256. -/
def imgProj (w : Weights) (xi : Fin 2048 → EReal) : Fin 256 → EReal := dense xi w.WiT w.bi

/-- The table row projected to width 256. -/
def tabProj (w : Weights) (xt : Fin 128 → EReal) : Fin 256 → EReal := dense xt w.WtT w.bt

/-- Image attends to table: value and output projections of the table projection, the image projection added, normalised. -/
def imgAtt (w : Weights) (xi : Fin 2048 → EReal) (xt : Fin 128 → EReal) : Fin 256 → EReal :=
  layerNorm (fun c => dense (dense (tabProj w xt) w.WvImgT w.bvImg) w.WoImgT w.boImg c + imgProj w xi c) w.g w.β

/-- Table attends to image: value and output projections of the image projection, the table projection added, normalised. -/
def tabAtt (w : Weights) (xi : Fin 2048 → EReal) (xt : Fin 128 → EReal) : Fin 256 → EReal :=
  layerNorm (fun c => dense (dense (imgProj w xi) w.WvTabT w.bvTab) w.WoTabT w.boTab c + tabProj w xt c) w.g w.β

/-- The result row: the two normalised rows side by side. -/
def fusedRow (w : Weights) (xi : Fin 2048 → EReal) (xt : Fin 128 → EReal) (j : Fin 512) : EReal :=
  if h : j.val < 256 then imgAtt w xi xt ⟨j.val, h⟩ else tabAtt w xi xt ⟨j.val - 256, by have := j.isLt; omega⟩

/-- The whole result: row r of the result is the fused row of row r of the two embeddings. -/
def fused (X : (⟨2, ![16384, 2048]⟩ : Shape).Idx → EReal) (T : (⟨2, ![16384, 128]⟩ : Shape).Idx → EReal) (w : Weights) :
    (⟨2, ![16384, 512]⟩ : Shape).Idx → EReal :=
  fun i => fusedRow w (fun k => X (ix2 (i 0) k)) (fun k => T (ix2 (i 0) k)) (i 1)

theorem fusedRow_left (w : Weights) (xi : Fin 2048 → EReal) (xt : Fin 128 → EReal) (j : Fin 512) (q : Fin 256)
    (h : j.val = q.val) : fusedRow w xi xt j = imgAtt w xi xt q := by
  have hq := q.isLt
  unfold fusedRow
  rw [dif_pos (by omega)]
  exact congrArg _ (Fin.ext h)

theorem fusedRow_right (w : Weights) (xi : Fin 2048 → EReal) (xt : Fin 128 → EReal) (j : Fin 512) (q : Fin 256)
    (h : j.val = 256 + q.val) : fusedRow w xi xt j = tabAtt w xi xt q := by
  unfold fusedRow
  rw [dif_neg (by omega)]
  exact congrArg _ (Fin.ext (by show j.val - 256 = q.val; omega))

end FusionSpec

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«115380_j25056839205944_1_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.KernelRows.lean ====
/-
  The kernel body's values, read one entry at a time at exact arithmetic.

  Each named value of the body is a 512-row matrix; entry (p, q) of it depends only on row p of the body's loaded
  blocks. A change of float format is the identity, a cast to the same shape too; a product into the zero
  accumulator is the sum over the contracted axis; a bias vector cast to a row and broadcast reads the vector at the
  column; a row sum kept as a column and broadcast back reads the row's sum. So every value at (p, q) is the
  specification's row function of row p.
-/
import proofs.«115380_j25056839205944_1_alg».proof.Proof.Gen.KernelIdeal.Skeleton
import proofs.«115380_j25056839205944_1_alg».proof.Proof.FusionSpec
import proofs.«115380_j25056839205944_1_alg».proof.Proof.LibMatmulIdx
import proofs.«115380_j25056839205944_1_alg».proof.Proof.LibKeepdims
import proofs.«115380_j25056839205944_1_alg».proof.Proof.LibColumnOps
import proofs.«115380_j25056839205944_1_alg».proof.Proof.LibRowOps
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx FusionSpec

/-! ## The three contraction records: which operand entries an entry of the product reads -/

section Records

theorem dotA_l0 (j : S512x256.Idx) (k : dot_S512x2048_S2048x256_S512x256_1_0_0_1_n_n.contr.Idx) :
    (dot_S512x2048_S2048x256_S512x256_1_0_0_1_n_n.lhsIdx j k 0).val = (j 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem dotA_r1 (j : S512x256.Idx) (k : dot_S512x2048_S2048x256_S512x256_1_0_0_1_n_n.contr.Idx) :
    (dot_S512x2048_S2048x256_S512x256_1_0_0_1_n_n.rhsIdx j k 1).val = (j 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

theorem dotB_l0 (j : S512x256.Idx) (k : dot_S512x128_S128x256_S512x256_1_0_0_1_n_n.contr.Idx) :
    (dot_S512x128_S128x256_S512x256_1_0_0_1_n_n.lhsIdx j k 0).val = (j 0).val := by
  unfold DotDims.lhsIdx
  rw [dif_neg (show ¬(0 : Fin S512x128.rank) ∈ dot_S512x128_S128x256_S512x256_1_0_0_1_n_n.lhsBatch by decide), dif_pos (show (0 : Fin S512x128.rank) ∈ dot_S512x128_S128x256_S512x256_1_0_0_1_n_n.lhsNonContracting by decide)]
  rfl
theorem dotB_r1 (j : S512x256.Idx) (k : dot_S512x128_S128x256_S512x256_1_0_0_1_n_n.contr.Idx) :
    (dot_S512x128_S128x256_S512x256_1_0_0_1_n_n.rhsIdx j k 1).val = (j 1).val := by
  unfold DotDims.rhsIdx
  rw [dif_neg (show ¬(1 : Fin S128x256.rank) ∈ dot_S512x128_S128x256_S512x256_1_0_0_1_n_n.rhsBatch by decide), dif_pos (show (1 : Fin S128x256.rank) ∈ dot_S512x128_S128x256_S512x256_1_0_0_1_n_n.rhsNonContracting by decide)]
  rfl

theorem dotC_l0 (j : S512x256.Idx) (k : dot_S512x256_S256x256_S512x256_1_0_0_1_n_n.contr.Idx) :
    (dot_S512x256_S256x256_S512x256_1_0_0_1_n_n.lhsIdx j k 0).val = (j 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem dotC_r1 (j : S512x256.Idx) (k : dot_S512x256_S256x256_S512x256_1_0_0_1_n_n.contr.Idx) :
    (dot_S512x256_S256x256_S512x256_1_0_0_1_n_n.rhsIdx j k 1).val = (j 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The 512×2048 by 2048×256 product into zero, at (p, q). -/
theorem prodA_apply {φ₁ φ₂ : FTy} (l : FVec Ideal S512x2048 φ₁) (r : FVec Ideal S2048x256 φ₂) (p : Fin 512) (q : Fin 256) :
    matmul dot_S512x2048_S2048x256_S512x256_1_0_0_1_n_n none l r (constant S512x256 .f32 0x00000000#32) (ix2 p q)
      = ∑ k : Fin 2048, l (ix2 p k) * r (ix2 k q) :=
  LibMatmulIdx.matmul2_apply dot_S512x2048_S2048x256_S512x256_1_0_0_1_n_n rfl rfl dotA_l0
    (fun j k => dot_S512x2048_S2048x256_S512x256_1_0_0_1_n_n.lhsIdx_val_of_single rfl j k)
    (fun j k => dot_S512x2048_S2048x256_S512x256_1_0_0_1_n_n.rhsIdx_val_of_single rfl j k) dotA_r1 none l r (ix2 p q)

/-- The 512×128 by 128×256 product into zero, at (p, q). -/
theorem prodB_apply {φ₁ φ₂ : FTy} (l : FVec Ideal S512x128 φ₁) (r : FVec Ideal S128x256 φ₂) (p : Fin 512) (q : Fin 256) :
    matmul dot_S512x128_S128x256_S512x256_1_0_0_1_n_n none l r (constant S512x256 .f32 0x00000000#32) (ix2 p q)
      = ∑ k : Fin 128, l (ix2 p k) * r (ix2 k q) :=
  LibMatmulIdx.matmul2_apply dot_S512x128_S128x256_S512x256_1_0_0_1_n_n rfl rfl dotB_l0
    (fun j k => dot_S512x128_S128x256_S512x256_1_0_0_1_n_n.lhsIdx_val_of_single rfl j k)
    (fun j k => dot_S512x128_S128x256_S512x256_1_0_0_1_n_n.rhsIdx_val_of_single rfl j k) dotB_r1 none l r (ix2 p q)

/-- The 512×256 by 256×256 product into zero, at (p, q). -/
theorem prodC_apply {φ₁ φ₂ : FTy} (l : FVec Ideal S512x256 φ₁) (r : FVec Ideal S256x256 φ₂) (p : Fin 512) (q : Fin 256) :
    matmul dot_S512x256_S256x256_S512x256_1_0_0_1_n_n none l r (constant S512x256 .f32 0x00000000#32) (ix2 p q)
      = ∑ k : Fin 256, l (ix2 p k) * r (ix2 k q) :=
  LibMatmulIdx.matmul2_apply dot_S512x256_S256x256_S512x256_1_0_0_1_n_n rfl rfl dotC_l0
    (fun j k => dot_S512x256_S256x256_S512x256_1_0_0_1_n_n.lhsIdx_val_of_single rfl j k)
    (fun j k => dot_S512x256_S256x256_S512x256_1_0_0_1_n_n.rhsIdx_val_of_single rfl j k) dotC_r1 none l r (ix2 p q)

end Records

/-! ## A bias vector as a row broadcast down the 512 rows -/

/-- A vector of length 256 cast to a row and broadcast to 512 rows reads, at (p, q), the vector at q. -/
theorem biasRows_apply (v : FVec Ideal S256 .f32) (p : Fin 512) (q : Fin 256) :
    broadcastTo S512x256 (shapeCast S1x256 v Facts₀.shapeCasts_S256_S1x256) Facts₀.broadcasts_S1x256_S512x256 (ix2 p q) = v (ix1 q) := by
  rw [LibRowOps.broadcastTo_row_apply, LibRowOps.shapeCast_row_apply]

/-! ## The projections -/

/-- The image projection at (p, q): the dense layer of row p of the image block. -/
theorem imgProj_apply (v0 : Vec Ideal S512x2048 .f32) (v2 : Vec Ideal S2048x256 .f32) (v6 : Vec Ideal S256 .f32) (p : Fin 512) (q : Fin 256) :
    k0_pay2 (F := Ideal) v0 v2 v6 (ix2 p q) = dense (fun k => v0 (ix2 p k)) v2 v6 q := by
  unfold k0_pay2
  rw [addf_apply, prodA_apply, biasRows_apply, shapeCast_self]
  rfl

/-- The table projection at (p, q): the dense layer of row p of the table block. -/
theorem tabProj_apply (v10 : Vec Ideal S512x128 .f32) (v12 : Vec Ideal S128x256 .f32) (v16 : Vec Ideal S256 .f32) (p : Fin 512) (q : Fin 256) :
    k0_pay3 (F := Ideal) v10 v12 v16 (ix2 p q) = dense (fun k => v10 (ix2 p k)) v12 v16 q := by
  unfold k0_pay3
  rw [addf_apply, prodB_apply, biasRows_apply, shapeCast_self]
  rfl

/-! ## The two attention branches before the residual -/

/-- Image attends to table, before the residual and the normalisation, at (p, q): the value and the output
    dense layers of the table projection of row p. -/
theorem imgBranch_apply (v10 : Vec Ideal S512x128 .f32) (v12 : Vec Ideal S128x256 .f32) (v16 : Vec Ideal S256 .f32)
    (v21 : Vec Ideal S256x256 .f32) (v25 : Vec Ideal S256 .f32) (v31 : Vec Ideal S256x256 .f32) (v35 : Vec Ideal S256 .f32)
    (p : Fin 512) (q : Fin 256) :
    k0_pay4 (F := Ideal) v10 v12 v16 v21 v25 v31 v35 (ix2 p q)
      = dense (dense (dense (fun k => v10 (ix2 p k)) v12 v16) v21 v25) v31 v35 q := by
  unfold k0_pay4
  simp only [addf_apply, truncf_apply, prodC_apply, biasRows_apply, shapeCast_self, tabProj_apply]
  rfl

/-- Table attends to image, before its output bias, at (p, q): the output product of the value dense layer of
    the image projection's row p (given as the matrix `v9`). -/
theorem tabBranch_apply (v9 : FVec Ideal S512x256 .f32) (v67 : Vec Ideal S256x256 .f32) (v71 : Vec Ideal S256 .f32)
    (v77 : Vec Ideal S256x256 .f32) (p : Fin 512) (q : Fin 256) :
    k0_pay6 (F := Ideal) v9 v67 v71 v77 (ix2 p q)
      = ∑ k : Fin 256, dense (fun k' => v9 (ix2 p k')) v67 v71 k * v77 (ix2 k q) := by
  unfold k0_pay6
  simp only [addf_apply, truncf_apply, prodC_apply, biasRows_apply, shapeCast_self]
  rfl

/-- The output bias of that branch, broadcast down the rows. -/
theorem tabBias_apply (v81 : Vec Ideal S256 .f32) (p : Fin 512) (q : Fin 256) :
    k0_pay7 (F := Ideal) v81 (ix2 p q) = v81 (ix1 q) := by
  unfold k0_pay7
  exact biasRows_apply v81 p q

/-! ## Layer normalisation of the rows -/

/-- The sum over the 256 columns of a 512-row matrix, at row p. -/
theorem rowSum_apply (x : FVec Ideal S512x256 .f32) (p : Fin 512) :
    multiReduction .add [1] S512 x 0x00000000#32 Facts₀.reduces_S512x256_S512 (.inl rfl) rfl (ix1 p) = ∑ k : Fin 256, x (ix2 p k) :=
  LibKeepdims.sum_axis1_apply x _ _ _ _ p

theorem rsqrt_apply {s : Shape} {φ : FTy} (x : FVec Ideal s φ) (i : s.Idx) : rsqrt x i = Ideal.rsqrt (x i) := rfl

/-- The first result half at (p, q): the layer normalisation of row p of the sum of its two summands. -/
theorem normLeft_apply (v9 v38 : FVec Ideal S512x256 .f32) (v40 v41 : Vec Ideal S256 .f32) (p : Fin 512) (q : Fin 256) :
    k0_pay5 (F := Ideal) v9 v38 v40 v41 (ix2 p q)
      = layerNorm (fun c => v38 (ix2 p c) + v9 (ix2 p c)) v40 v41 q := by
  unfold k0_pay5
  simp only [addf_apply, mulf_apply, subf_apply, divf_apply, rsqrt_apply, broadcast_apply, biasRows_apply,
    LibColumnOps.broadcastTo_col_apply, LibKeepdims.shapeCast_col_apply]
  rw [rowSum_apply (mulf _ _)]
  simp only [addf_apply, mulf_apply, subf_apply, divf_apply, broadcast_apply,
    LibColumnOps.broadcastTo_col_apply, LibKeepdims.shapeCast_col_apply]
  rw [rowSum_apply]
  simp only [addf_apply]
  unfold layerNorm rowVar rowMean width eps
  rfl

/-- The second result half at (p, q): the layer normalisation of row p of the sum of its three summands. -/
theorem normRight_apply (v19 v80 v83 : FVec Ideal S512x256 .f32) (v86 v87 : Vec Ideal S256 .f32) (p : Fin 512) (q : Fin 256) :
    k0_pay1 (F := Ideal) v19 v80 v83 v86 v87 (ix2 p q)
      = layerNorm (fun c => v80 (ix2 p c) + v83 (ix2 p c) + v19 (ix2 p c)) v86 v87 q := by
  unfold k0_pay1
  simp only [addf_apply, mulf_apply, subf_apply, divf_apply, rsqrt_apply, broadcast_apply, biasRows_apply,
    LibColumnOps.broadcastTo_col_apply, LibKeepdims.shapeCast_col_apply]
  rw [rowSum_apply (mulf _ _)]
  simp only [addf_apply, mulf_apply, subf_apply, divf_apply, broadcast_apply,
    LibColumnOps.broadcastTo_col_apply, LibKeepdims.shapeCast_col_apply]
  rw [rowSum_apply]
  simp only [addf_apply]
  unfold layerNorm rowVar rowMean width eps
  rfl

end Cert.KernelIdeal.Rows

end
-- ==== Proof.KernelBlock.lean ====
/-
  What the kernel body leaves in the 512×512 result block, as one function of its sixteen loaded blocks.

  The body stores the first normalised matrix into columns 0..255 of the block and the second into columns
  256..511. Its loads read the operand blocks whole. So entry (y₀, y₁) of the block is the specification's result
  row of row y₀ of the two embedding blocks, at column y₁, with the fourteen weight blocks as the weights.
-/
import proofs.«115380_j25056839205944_1_alg».proof.Proof.Gen.KernelIdeal.Frame
import proofs.«115380_j25056839205944_1_alg».proof.Proof.KernelRows

noncomputable section

namespace Cert.KernelIdeal.Rows

open Cert.KernelIdeal Cert.KernelIdeal.Gen Idealize.ShloMosaic Idealize.ShloMosaic.ValueIdx FusionSpec

theorem zeros1 : (![0] : Fin 1 → Nat) = fun _ => 0 := funext fun a => by fin_cases a; rfl
theorem zeros2 : (![0, 0] : Fin 2 → Nat) = fun _ => 0 := funext fun a => by fin_cases a <;> rfl

/-- The fourteen weight blocks the body loads, as the specification's weights. -/
abbrev blockWeights (x2 : Vec Ideal S2048x256 .f32) (x3 : Vec Ideal S256 .f32) (x4 : Vec Ideal S128x256 .f32) (x5 : Vec Ideal S256 .f32) (x6 : Vec Ideal S256x256 .f32) (x7 : Vec Ideal S256 .f32) (x8 : Vec Ideal S256x256 .f32) (x9 : Vec Ideal S256 .f32) (x10 : Vec Ideal S256x256 .f32) (x11 : Vec Ideal S256 .f32) (x12 : Vec Ideal S256x256 .f32) (x13 : Vec Ideal S256 .f32) (x14 : Vec Ideal S256 .f32) (x15 : Vec Ideal S256 .f32) : Weights :=
  ⟨x2, x3, x4, x5, x6, x7, x8, x9, x10, x11, x12, x13, x14, x15⟩

/-- The block's function: the result row of row y₀ of the embedding blocks, at column y₁. -/
abbrev blockFn (x0 : Vec Ideal S512x2048 .f32) (x1 : Vec Ideal S512x128 .f32) (x2 : Vec Ideal S2048x256 .f32) (x3 : Vec Ideal S256 .f32) (x4 : Vec Ideal S128x256 .f32) (x5 : Vec Ideal S256 .f32) (x6 : Vec Ideal S256x256 .f32) (x7 : Vec Ideal S256 .f32) (x8 : Vec Ideal S256x256 .f32) (x9 : Vec Ideal S256 .f32) (x10 : Vec Ideal S256x256 .f32) (x11 : Vec Ideal S256 .f32) (x12 : Vec Ideal S256x256 .f32) (x13 : Vec Ideal S256 .f32) (x14 : Vec Ideal S256 .f32) (x15 : Vec Ideal S256 .f32) : S512x512.Idx → EReal :=
  fun y => fusedRow (blockWeights x2 x3 x4 x5 x6 x7 x8 x9 x10 x11 x12 x13 x14 x15) (fun k => x0 (ix2 (y 0) k)) (fun k => x1 (ix2 (y 0) k)) (y 1)

/-- The store into columns 256..511 holds the second normalised matrix. -/
theorem rightPiece (x0 : Vec Ideal S512x2048 .f32) (x1 : Vec Ideal S512x128 .f32) (x2 : Vec Ideal S2048x256 .f32) (x3 : Vec Ideal S256 .f32) (x4 : Vec Ideal S128x256 .f32) (x5 : Vec Ideal S256 .f32) (x6 : Vec Ideal S256x256 .f32) (x7 : Vec Ideal S256 .f32) (x8 : Vec Ideal S256x256 .f32) (x9 : Vec Ideal S256 .f32) (x10 : Vec Ideal S256x256 .f32) (x11 : Vec Ideal S256 .f32) (x12 : Vec Ideal S256x256 .f32) (x13 : Vec Ideal S256 .f32) (x14 : Vec Ideal S256 .f32) (x15 : Vec Ideal S256 .f32) (x : r0_7.shape.Idx) :
    k0_pay1 (F := Ideal) (k0_pay3 x1 x4 x5) (k0_pay6 (k0_pay2 x0 x2 x3) x10 x11 x12) (k0_pay7 x13) x14 x15 x
      = blockFn x0 x1 x2 x3 x4 x5 x6 x7 x8 x9 x10 x11 x12 x13 x14 x15 (r0_7.emb x) := by
  obtain ⟨p, q, rfl⟩ : ∃ (p : Fin 512) (q : Fin 256), x = ix2 p q := ⟨x 0, x 1, eq_ix2 x⟩
  have e0 : (r0_7.emb (ix2 p q)) 0 = p := Fin.ext (by show 0 + 1 * p.val = p.val; omega)
  have e1 : ((r0_7.emb (ix2 p q)) 1).val = 256 + q.val := by show 256 + 1 * q.val = 256 + q.val; omega
  show _ = fusedRow _ _ _ _
  rw [fusedRow_right _ _ _ _ q e1, e0, normRight_apply]
  simp only [tabBranch_apply, tabBias_apply, tabProj_apply, imgProj_apply]
  rfl

/-- The store into columns 0..255 holds the first normalised matrix. -/
theorem leftPiece (x0 : Vec Ideal S512x2048 .f32) (x1 : Vec Ideal S512x128 .f32) (x2 : Vec Ideal S2048x256 .f32) (x3 : Vec Ideal S256 .f32) (x4 : Vec Ideal S128x256 .f32) (x5 : Vec Ideal S256 .f32) (x6 : Vec Ideal S256x256 .f32) (x7 : Vec Ideal S256 .f32) (x8 : Vec Ideal S256x256 .f32) (x9 : Vec Ideal S256 .f32) (x10 : Vec Ideal S256x256 .f32) (x11 : Vec Ideal S256 .f32) (x12 : Vec Ideal S256x256 .f32) (x13 : Vec Ideal S256 .f32) (x14 : Vec Ideal S256 .f32) (x15 : Vec Ideal S256 .f32) (x : r0_6.shape.Idx) :
    k0_pay5 (F := Ideal) (k0_pay2 x0 x2 x3) (k0_pay4 x1 x4 x5 x6 x7 x8 x9) x14 x15 x
      = blockFn x0 x1 x2 x3 x4 x5 x6 x7 x8 x9 x10 x11 x12 x13 x14 x15 (r0_6.emb x) := by
  obtain ⟨p, q, rfl⟩ : ∃ (p : Fin 512) (q : Fin 256), x = ix2 p q := ⟨x 0, x 1, eq_ix2 x⟩
  have e0 : (r0_6.emb (ix2 p q)) 0 = p := Fin.ext (by show 0 + 1 * p.val = p.val; omega)
  have e1 : ((r0_6.emb (ix2 p q)) 1).val = q.val := by show 0 + 1 * q.val = q.val; omega
  show _ = fusedRow _ _ _ _
  rw [fusedRow_left _ _ _ _ q e1, e0, normLeft_apply]
  simp only [imgBranch_apply, imgProj_apply]
  rfl

/-- The result block after the body: entry (y₀, y₁) is the result row of row y₀ at column y₁. -/
theorem block_eq (x0 : Vec Ideal S512x2048 .f32) (x1 : Vec Ideal S512x128 .f32) (x2 : Vec Ideal S2048x256 .f32) (x3 : Vec Ideal S256 .f32) (x4 : Vec Ideal S128x256 .f32) (x5 : Vec Ideal S256 .f32) (x6 : Vec Ideal S256x256 .f32) (x7 : Vec Ideal S256 .f32) (x8 : Vec Ideal S256x256 .f32) (x9 : Vec Ideal S256 .f32) (x10 : Vec Ideal S256x256 .f32) (x11 : Vec Ideal S256 .f32) (x12 : Vec Ideal S256x256 .f32) (x13 : Vec Ideal S256 .f32) (x14 : Vec Ideal S256 .f32) (x15 : Vec Ideal S256 .f32) :
    out0_16 (F := Ideal) x0 x1 x2 x3 x4 x5 x6 x7 x8 x9 x10 x11 x12 x13 x14 x15 = blockFn x0 x1 x2 x3 x4 x5 x6 x7 x8 x9 x10 x11 x12 x13 x14 x15 := by
  funext y
  unfold out0_16
  simp only [View.ld_unit_zero (S := S512x2048) zeros2, View.ld_unit_zero (S := S2048x256) zeros2,
    View.ld_unit_zero (S := S256) zeros1, View.ld_unit_zero (S := S512x128) zeros2,
    View.ld_unit_zero (S := S128x256) zeros2, View.ld_unit_zero (S := S256x256) zeros2]
  refine View.canon_apply_of_pieces (Val := Elt Ideal) (e := .f32) (blockFn x0 x1 x2 x3 x4 x5 x6 x7 x8 x9 x10 x11 x12 x13 x14 x15) _ ?_ y (cover0_16 _ _ y)
  intro pc hpc x
  rcases List.mem_cons.mp hpc with rfl | hpc
  · exact rightPiece x0 x1 x2 x3 x4 x5 x6 x7 x8 x9 x10 x11 x12 x13 x14 x15 x
  · rcases List.mem_cons.mp hpc with rfl | hpc
    · exact leftPiece x0 x1 x2 x3 x4 x5 x6 x7 x8 x9 x10 x11 x12 x13 x14 x15 x
    · exact absurd hpc List.not_mem_nil

end Cert.KernelIdeal.Rows

end
-- ==== Proof.KernelArray.lean ====
/-
  From the result blocks to the whole result array.

  The grid has 32 points; point t stages rows 512·t … 512·t + 511 of the two embeddings and of the result, and
  every weight array whole. The weight arrays the region finds are the host's transposes (and slices) of the
  arguments. So what point t writes back is block t of the specification's function of the arguments, the 32
  blocks cover the result array, and the array ends holding that function.
-/
import proofs.«115380_j25056839205944_1_alg».proof.Proof.Gen.KernelIdeal.Frame
import proofs.«115380_j25056839205944_1_alg».proof.Proof.Gen.KernelIdeal.Value
import proofs.«115380_j25056839205944_1_alg».proof.Proof.KernelBlock
import Idealize.ShloMosaic.Lib.Pipeline.Value
import Idealize.ShloMosaic.Lib.StableHlo.Run
import Idealize.ShloMosaic.Lib.Tactic

noncomputable section

namespace Cert.KernelIdeal.Rows

open Cert.KernelIdeal Cert.KernelIdeal.Gen Cert.KernelIdeal.Value Idealize.ShloMosaic Idealize.ShloMosaic.TcCoe Idealize.SL.Sem
open Idealize.ShloMosaic.ValueIdx FusionSpec
open Idealize.ShloMosaic.Pipeline (Dat)

variable (m : (ℓ : Loc nD τ sig) → Buf (Elt Ideal) ℓ) (ρ : Dev nD → PrngReg)

/-! ## Which block of its array each window stages at point t -/

/-- The index maps, decided over the 32 grid points: the embeddings and the result move down one block of rows
    per point; every weight window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_16.index t (0 : Fin 2) = t.val ∧ win0_16.index t (1 : Fin 2) = 0 :=
  (by decide +kernel : ∀ t : Fin grid0.N, _)

theorem idx_weights : ∀ t : Fin cfg0.N,
    (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ win0_11.index t (0 : Fin 1) = 0
    ∧ (win0_12.index t (0 : Fin 2) = 0 ∧ win0_12.index t (1 : Fin 2) = 0)
    ∧ win0_13.index t (0 : Fin 1) = 0
    ∧ win0_14.index t (0 : Fin 1) = 0
    ∧ win0_15.index t (0 : Fin 1) = 0 :=
  (by decide +kernel : ∀ t : Fin grid0.N, _)

/-- Window 0 at point t stages rows 512·t … 512·t + 511 of its array. -/
theorem rowBlock0_apply (c : Dev nD) (t : Fin cfg0.N) (p : Fin 512) (k : Fin 2048) (R : Fin 16384) (hR : R.val = 512 * t.val + p.val) :
    (iblk m c 0 t : Vec Ideal S512x2048 .f32) (ix2 p k) = V m c main_arg0 (ix2 R k) := by
  obtain ⟨a0, a1, b0, b1, -, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * p.val = R.val; rw [a0, hR]; omega
  | ⟨1, _⟩ => show win0_0.index t (1 : Fin 2) * 2048 + 1 * k.val = k.val; rw [a1]; omega

/-- Window 1 at point t stages rows 512·t … 512·t + 511 of its array. -/
theorem rowBlock1_apply (c : Dev nD) (t : Fin cfg0.N) (p : Fin 512) (k : Fin 128) (R : Fin 16384) (hR : R.val = 512 * t.val + p.val) :
    (iblk m c 1 t : Vec Ideal S512x128 .f32) (ix2 p k) = V m c main_arg1 (ix2 R k) := by
  obtain ⟨a0, a1, b0, b1, -, -⟩ := idx_facts t
  unfold iblk
  rw [View.read_apply]
  show V m c main_arg1 _ = V m c main_arg1 _
  congr 1
  funext a
  apply Fin.ext
  match a with
  | ⟨0, _⟩ => show win0_1.index t (0 : Fin 2) * 512 + 1 * p.val = R.val; rw [b0, hR]; omega
  | ⟨1, _⟩ => show win0_1.index t (1 : Fin 2) * 128 + 1 * k.val = k.val; rw [b1]; omega

/-- Window 2 stages its array whole at every point. -/
theorem wholeBlock2 (c : Dev nD) (t : Fin cfg0.N) : (iblk m c 2 t : Vec Ideal S2048x256 .f32) = V m c main_v0 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_v0 _ = V m c main_v0 x
  congr 1
  funext a
  apply Fin.ext
  match a with
  | ⟨0, _⟩ => show win0_2.index t (0 : Fin 2) * 2048 + 1 * (x 0).val = (x 0).val; rw [e2_0]; omega
  | ⟨1, _⟩ => show win0_2.index t (1 : Fin 2) * 256 + 1 * (x 1).val = (x 1).val; rw [e2_1]; omega

/-- Window 3 stages its array whole at every point. -/
theorem wholeBlock3 (c : Dev nD) (t : Fin cfg0.N) : (iblk m c 3 t : Vec Ideal S256 .f32) = V m c main_arg3 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_arg3 _ = V m c main_arg3 x
  congr 1
  funext a
  apply Fin.ext
  match a with
  | ⟨0, _⟩ => show win0_3.index t (0 : Fin 1) * 256 + 1 * (x 0).val = (x 0).val; rw [e3_0]; omega

/-- Window 4 stages its array whole at every point. -/
theorem wholeBlock4 (c : Dev nD) (t : Fin cfg0.N) : (iblk m c 4 t : Vec Ideal S128x256 .f32) = V m c main_v1 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_v1 _ = V m c main_v1 x
  congr 1
  funext a
  apply Fin.ext
  match a with
  | ⟨0, _⟩ => show win0_4.index t (0 : Fin 2) * 128 + 1 * (x 0).val = (x 0).val; rw [e4_0]; omega
  | ⟨1, _⟩ => show win0_4.index t (1 : Fin 2) * 256 + 1 * (x 1).val = (x 1).val; rw [e4_1]; omega

/-- Window 5 stages its array whole at every point. -/
theorem wholeBlock5 (c : Dev nD) (t : Fin cfg0.N) : (iblk m c 5 t : Vec Ideal S256 .f32) = V m c main_arg5 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_arg5 _ = V m c main_arg5 x
  congr 1
  funext a
  apply Fin.ext
  match a with
  | ⟨0, _⟩ => show win0_5.index t (0 : Fin 1) * 256 + 1 * (x 0).val = (x 0).val; rw [e5_0]; omega

/-- Window 6 stages its array whole at every point. -/
theorem wholeBlock6 (c : Dev nD) (t : Fin cfg0.N) : (iblk m c 6 t : Vec Ideal S256x256 .f32) = V m c main_v3 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_v3 _ = V m c main_v3 x
  congr 1
  funext a
  apply Fin.ext
  match a with
  | ⟨0, _⟩ => show win0_6.index t (0 : Fin 2) * 256 + 1 * (x 0).val = (x 0).val; rw [e6_0]; omega
  | ⟨1, _⟩ => show win0_6.index t (1 : Fin 2) * 256 + 1 * (x 1).val = (x 1).val; rw [e6_1]; omega

/-- Window 7 stages its array whole at every point. -/
theorem wholeBlock7 (c : Dev nD) (t : Fin cfg0.N) : (iblk m c 7 t : Vec Ideal S256 .f32) = V m c main_v4 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_v4 _ = V m c main_v4 x
  congr 1
  funext a
  apply Fin.ext
  match a with
  | ⟨0, _⟩ => show win0_7.index t (0 : Fin 1) * 256 + 1 * (x 0).val = (x 0).val; rw [e7_0]; omega

/-- Window 8 stages its array whole at every point. -/
theorem wholeBlock8 (c : Dev nD) (t : Fin cfg0.N) : (iblk m c 8 t : Vec Ideal S256x256 .f32) = V m c main_v5 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_v5 _ = V m c main_v5 x
  congr 1
  funext a
  apply Fin.ext
  match a with
  | ⟨0, _⟩ => show win0_8.index t (0 : Fin 2) * 256 + 1 * (x 0).val = (x 0).val; rw [e8_0]; omega
  | ⟨1, _⟩ => show win0_8.index t (1 : Fin 2) * 256 + 1 * (x 1).val = (x 1).val; rw [e8_1]; omega

/-- Window 9 stages its array whole at every point. -/
theorem wholeBlock9 (c : Dev nD) (t : Fin cfg0.N) : (iblk m c 9 t : Vec Ideal S256 .f32) = V m c main_arg9 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_arg9 _ = V m c main_arg9 x
  congr 1
  funext a
  apply Fin.ext
  match a with
  | ⟨0, _⟩ => show win0_9.index t (0 : Fin 1) * 256 + 1 * (x 0).val = (x 0).val; rw [e9_0]; omega

/-- Window 10 stages its array whole at every point. -/
theorem wholeBlock10 (c : Dev nD) (t : Fin cfg0.N) : (iblk m c 10 t : Vec Ideal S256x256 .f32) = V m c main_v7 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_v7 _ = V m c main_v7 x
  congr 1
  funext a
  apply Fin.ext
  match a with
  | ⟨0, _⟩ => show win0_10.index t (0 : Fin 2) * 256 + 1 * (x 0).val = (x 0).val; rw [e10_0]; omega
  | ⟨1, _⟩ => show win0_10.index t (1 : Fin 2) * 256 + 1 * (x 1).val = (x 1).val; rw [e10_1]; omega

/-- Window 11 stages its array whole at every point. -/
theorem wholeBlock11 (c : Dev nD) (t : Fin cfg0.N) : (iblk m c 11 t : Vec Ideal S256 .f32) = V m c main_v8 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_v8 _ = V m c main_v8 x
  congr 1
  funext a
  apply Fin.ext
  match a with
  | ⟨0, _⟩ => show win0_11.index t (0 : Fin 1) * 256 + 1 * (x 0).val = (x 0).val; rw [e11_0]; omega

/-- Window 12 stages its array whole at every point. -/
theorem wholeBlock12 (c : Dev nD) (t : Fin cfg0.N) : (iblk m c 12 t : Vec Ideal S256x256 .f32) = V m c main_v9 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_v9 _ = V m c main_v9 x
  congr 1
  funext a
  apply Fin.ext
  match a with
  | ⟨0, _⟩ => show win0_12.index t (0 : Fin 2) * 256 + 1 * (x 0).val = (x 0).val; rw [e12_0]; omega
  | ⟨1, _⟩ => show win0_12.index t (1 : Fin 2) * 256 + 1 * (x 1).val = (x 1).val; rw [e12_1]; omega

/-- Window 13 stages its array whole at every point. -/
theorem wholeBlock13 (c : Dev nD) (t : Fin cfg0.N) : (iblk m c 13 t : Vec Ideal S256 .f32) = V m c main_arg13 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_arg13 _ = V m c main_arg13 x
  congr 1
  funext a
  apply Fin.ext
  match a with
  | ⟨0, _⟩ => show win0_13.index t (0 : Fin 1) * 256 + 1 * (x 0).val = (x 0).val; rw [e13_0]; omega

/-- Window 14 stages its array whole at every point. -/
theorem wholeBlock14 (c : Dev nD) (t : Fin cfg0.N) : (iblk m c 14 t : Vec Ideal S256 .f32) = V m c main_arg14 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_arg14 _ = V m c main_arg14 x
  congr 1
  funext a
  apply Fin.ext
  match a with
  | ⟨0, _⟩ => show win0_14.index t (0 : Fin 1) * 256 + 1 * (x 0).val = (x 0).val; rw [e14_0]; omega

/-- Window 15 stages its array whole at every point. -/
theorem wholeBlock15 (c : Dev nD) (t : Fin cfg0.N) : (iblk m c 15 t : Vec Ideal S256 .f32) = V m c main_arg15 := by
  obtain ⟨⟨e2_0, e2_1⟩, e3_0, ⟨e4_0, e4_1⟩, e5_0, ⟨e6_0, e6_1⟩, e7_0, ⟨e8_0, e8_1⟩, e9_0, ⟨e10_0, e10_1⟩, e11_0, ⟨e12_0, e12_1⟩, e13_0, e14_0, e15_0⟩ := idx_weights t
  funext x
  unfold iblk
  rw [View.read_apply]
  show V m c main_arg15 _ = V m c main_arg15 x
  congr 1
  funext a
  apply Fin.ext
  match a with
  | ⟨0, _⟩ => show win0_15.index t (0 : Fin 1) * 256 + 1 * (x 0).val = (x 0).val; rw [e15_0]; omega

/-! ## The weight arrays as the region finds them: the host's transposes and slices of the arguments -/

theorem host_main_v0 (c : Dev nD) : (V m c main_v0 : S2048x256.Idx → EReal) = transpose S2048x256 [1, 0] (m ((c : Thread nD τ).loc main_arg2)) Facts₀.transposes_S256x2048_S2048x256_1_0 := by
  dsimp only [Gen.V, Gen.hostOps0]
  after_results

theorem host_main_v1 (c : Dev nD) : (V m c main_v1 : S128x256.Idx → EReal) = transpose S128x256 [1, 0] (m ((c : Thread nD τ).loc main_arg4)) Facts₀.transposes_S256x128_S128x256_1_0 := by
  dsimp only [Gen.V, Gen.hostOps0]
  after_results

theorem host_main_v3 (c : Dev nD) : (V m c main_v3 : S256x256.Idx → EReal) = transpose S256x256 [1, 0] (extractStridedSlice S256x256 ![512, 0] (m ((c : Thread nD τ).loc main_arg6)) Facts₀.slices_S768x256_S256x256_512_0) Facts₀.transposes_S256x256_S256x256_1_0 := by
  dsimp only [Gen.V, Gen.hostOps0]
  after_results

theorem host_main_v4 (c : Dev nD) : (V m c main_v4 : S256.Idx → EReal) = extractStridedSlice S256 ![512] (m ((c : Thread nD τ).loc main_arg7)) Facts₀.slices_S768_S256_512 := by
  dsimp only [Gen.V, Gen.hostOps0]
  after_results

theorem host_main_v5 (c : Dev nD) : (V m c main_v5 : S256x256.Idx → EReal) = transpose S256x256 [1, 0] (m ((c : Thread nD τ).loc main_arg8)) Facts₀.transposes_S256x256_S256x256_1_0 := by
  dsimp only [Gen.V, Gen.hostOps0]
  after_results

theorem host_main_v7 (c : Dev nD) : (V m c main_v7 : S256x256.Idx → EReal) = transpose S256x256 [1, 0] (extractStridedSlice S256x256 ![512, 0] (m ((c : Thread nD τ).loc main_arg10)) Facts₀.slices_S768x256_S256x256_512_0) Facts₀.transposes_S256x256_S256x256_1_0 := by
  dsimp only [Gen.V, Gen.hostOps0]
  after_results

theorem host_main_v8 (c : Dev nD) : (V m c main_v8 : S256.Idx → EReal) = extractStridedSlice S256 ![512] (m ((c : Thread nD τ).loc main_arg11)) Facts₀.slices_S768_S256_512 := by
  dsimp only [Gen.V, Gen.hostOps0]
  after_results

theorem host_main_v9 (c : Dev nD) : (V m c main_v9 : S256x256.Idx → EReal) = transpose S256x256 [1, 0] (m ((c : Thread nD τ).loc main_arg12)) Facts₀.transposes_S256x256_S256x256_1_0 := by
  dsimp only [Gen.V, Gen.hostOps0]
  after_results

/-- The weights as the host builds them from the arguments: each matrix transposed, the two attention input
    projections cut down to their value rows first. -/
abbrev kernelWeights (c : Dev nD) : Weights :=
  ⟨transpose S2048x256 [1, 0] (m ((c : Thread nD τ).loc main_arg2)) Facts₀.transposes_S256x2048_S2048x256_1_0,
   (m ((c : Thread nD τ).loc main_arg3)),
   transpose S128x256 [1, 0] (m ((c : Thread nD τ).loc main_arg4)) Facts₀.transposes_S256x128_S128x256_1_0,
   (m ((c : Thread nD τ).loc main_arg5)),
   transpose S256x256 [1, 0] (extractStridedSlice S256x256 ![512, 0] (m ((c : Thread nD τ).loc main_arg6)) Facts₀.slices_S768x256_S256x256_512_0) Facts₀.transposes_S256x256_S256x256_1_0,
   extractStridedSlice S256 ![512] (m ((c : Thread nD τ).loc main_arg7)) Facts₀.slices_S768_S256_512,
   transpose S256x256 [1, 0] (m ((c : Thread nD τ).loc main_arg8)) Facts₀.transposes_S256x256_S256x256_1_0,
   (m ((c : Thread nD τ).loc main_arg9)),
   transpose S256x256 [1, 0] (extractStridedSlice S256x256 ![512, 0] (m ((c : Thread nD τ).loc main_arg10)) Facts₀.slices_S768x256_S256x256_512_0) Facts₀.transposes_S256x256_S256x256_1_0,
   extractStridedSlice S256 ![512] (m ((c : Thread nD τ).loc main_arg11)) Facts₀.slices_S768_S256_512,
   transpose S256x256 [1, 0] (m ((c : Thread nD τ).loc main_arg12)) Facts₀.transposes_S256x256_S256x256_1_0,
   (m ((c : Thread nD τ).loc main_arg13)),
   (m ((c : Thread nD τ).loc main_arg14)),
   (m ((c : Thread nD τ).loc main_arg15))⟩

/-- The weights as the region finds them. -/
abbrev regionWeights (c : Dev nD) : Weights :=
  blockWeights (V m c main_v0) (V m c main_arg3) (V m c main_v1) (V m c main_arg5) (V m c main_v3) (V m c main_v4) (V m c main_v5) (V m c main_arg9) (V m c main_v7) (V m c main_v8) (V m c main_v9) (V m c main_arg13) (V m c main_arg14) (V m c main_arg15)

theorem regionWeights_eq (c : Dev nD) : regionWeights m c = kernelWeights m c := by
  unfold regionWeights kernelWeights blockWeights
  rw [host_main_v0, host_main_v1, host_main_v3, host_main_v4, host_main_v5, host_main_v7, host_main_v8, host_main_v9,
    V_main_arg3, V_main_arg5, V_main_arg9, V_main_arg13, V_main_arg14, V_main_arg15]

/-! ## What each point writes back, the cover, and the array after the run -/

/-- What point t writes back is block t of the specification's function of the arrays the region finds. -/
theorem flushed_eq (c : Dev nD) (t : Fin cfg0.N) :
    (dats m 0 c).flushed 16 t
      = ((cfg0.win 16).blk t).view.read (Elt Ideal) (fused (V m c main_arg0) (V m c main_arg1) (regionWeights m c)) := by
  rw [flushed16, block_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)]
  rw [wholeBlock2 m c t, wholeBlock3 m c t, wholeBlock4 m c t, wholeBlock5 m c t, wholeBlock6 m c t, wholeBlock7 m c t, wholeBlock8 m c t, wholeBlock9 m c t, wholeBlock10 m c t, wholeBlock11 m c t, wholeBlock12 m c t, wholeBlock13 m c t, wholeBlock14 m c t, wholeBlock15 m c t]
  obtain ⟨-, -, -, -, e0, e1⟩ := idx_facts t
  funext j
  have hj0 : (j 0).val < 512 := (j 0).isLt
  have ht : t.val < 32 := by have := t.isLt; have hN : cfg0.N = 32 := N_0; omega
  show fusedRow (regionWeights m c) (fun k => (iblk m c 0 t : Vec Ideal S512x2048 .f32) (ix2 (j 0) k))
      (fun k => (iblk m c 1 t : Vec Ideal S512x128 .f32) (ix2 (j 0) k)) (j 1)
    = fusedRow (regionWeights m c) (fun k => V m c main_arg0 (ix2 ((((cfg0.win 16).blk t).view.emb j) 0) k))
      (fun k => V m c main_arg1 (ix2 ((((cfg0.win 16).blk t).view.emb j) 0) k)) ((((cfg0.win 16).blk t).view.emb j) 1)
  have hr : ((((cfg0.win 16).blk t).view.emb j) 0).val = 512 * t.val + (j 0).val := by
    show win0_16.index t (0 : Fin 2) * 512 + 1 * (j 0).val = _
    rw [e0]; omega
  have hc : (((cfg0.win 16).blk t).view.emb j) 1 = j 1 := Fin.ext (by
    show win0_16.index t (1 : Fin 2) * 512 + 1 * (j 1).val = (j 1).val
    rw [e1]; omega)
  have hx : (fun k => (iblk m c 0 t : Vec Ideal S512x2048 .f32) (ix2 (j 0) k))
      = fun k => V m c main_arg0 (ix2 ((((cfg0.win 16).blk t).view.emb j) 0) k) :=
    funext fun k => rowBlock0_apply m c t (j 0) k _ hr
  have hy : (fun k => (iblk m c 1 t : Vec Ideal S512x128 .f32) (ix2 (j 0) k))
      = fun k => V m c main_arg1 (ix2 ((((cfg0.win 16).blk t).view.emb j) 0) k) :=
    funext fun k => rowBlock1_apply m c t (j 0) k _ hr
  rw [hx, hy, hc]

/-- An index of the result array is in point t's block iff its coordinates are in the block's ranges. -/
theorem mem_block (t : Fin cfg0.N) (i : S16384x512.Idx) :
    i ∈ ((cfg0.win 16).blk t).view.set ↔ ∀ a : Fin 2, win0_16.index t a * S512x512.size a ≤ (i a).val ∧ (i a).val < win0_16.index t a * S512x512.size a + S512x512.size a := by
  show i ∈ ((View.whole main_v10).slice (win0_16.rect t)).set ↔ _
  rw [View.set_slice_whole, Rect.mem_set_unit]
  exact Iff.rfl

/-- The 32 blocks cover the result array: row r is in the block of point r / 512. -/
theorem covered (i : S16384x512.Idx) :
    ∃ t : Fin cfg0.N, (cfg0.win 16).flush t = true ∧ i ∈ ((cfg0.win 16).blk t).view.set := by
  have hi0 : (i 0).val < 16384 := (i 0).isLt
  have hi1 : (i 1).val < 512 := (i 1).isLt
  have hN : cfg0.N = 32 := N_0
  let t : Fin cfg0.N := ⟨(i 0).val / 512, by rw [hN]; omega⟩
  obtain ⟨-, -, -, -, e0, e1⟩ := idx_facts t
  refine ⟨t, flush0_16 t, ?_⟩
  rw [mem_block]
  intro a
  match a with
  | ⟨0, _⟩ =>
    show win0_16.index t (0 : Fin 2) * 512 ≤ (i 0).val ∧ (i 0).val < win0_16.index t (0 : Fin 2) * 512 + 512
    rw [e0]
    show (i 0).val / 512 * 512 ≤ (i 0).val ∧ (i 0).val < (i 0).val / 512 * 512 + 512
    omega
  | ⟨1, _⟩ =>
    show win0_16.index t (1 : Fin 2) * 512 ≤ (i 1).val ∧ (i 1).val < win0_16.index t (1 : Fin 2) * 512 + 512
    rw [e1]
    omega

/-- The result array after the run is the specification's function of the arguments. -/
theorem final (c : Dev nD) :
    (dats m 0 c).arrAt 16 cfg0.N = fused (m ((c : Thread nD τ).loc main_arg0)) (m ((c : Thread nD τ).loc main_arg1)) (kernelWeights m c) := by
  rw [← regionWeights_eq, ← V_main_arg0 m c, ← V_main_arg1 m c]
  exact (dats m 0 c).arrAt_eq_of_cover 16 _ (fun t _ => flushed_eq m c t) covered

/-- The kernel's run: the result array ends at the specification's function of the arguments, which end unchanged. -/
theorem run : θ_run defs (onTc (τ := τ) (main (F := Ideal))) ⟨m, fun _ => 0, ρ⟩ fun r => ∀ c : Dev nD,
      r.2.mem ((c : Thread nD τ).loc main_v10) = fused (m ((c : Thread nD τ).loc main_arg0)) (m ((c : Thread nD τ).loc main_arg1)) (kernelWeights m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (run_blocks m ρ)

end Cert.KernelIdeal.Rows

end
-- ==== Proof.LibIndexEq.lean ====
/-
  An index of a one- or two-axis shape is determined by its coordinates: if the coordinates of `f` are those of
  `a` (and `b`), then `f` is the index built from them. Used to identify an index that a program spells by a
  case split on the axis with the index built from literal coordinates.
-/
import Idealize.ShloMosaic.Lib.ValueIdx

namespace LibIndexEq

open Idealize.ShloMosaic Idealize.ShloMosaic.ValueIdx

/-- A two-axis index with coordinates `a` and `b` is `ix2 a b`. -/
theorem idx2_eq {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A one-axis index with coordinate `a` is `ix1 a`. -/
theorem idx1_eq {n : ℕ} (f : (⟨1, ![n]⟩ : Shape).Idx) (a : Fin n) (h0 : (f 0).val = a.val) : f = ix1 a :=
  funext fun d => Fin.ext (by
    match d with
    | ⟨0, _⟩ => exact h0)

end LibIndexEq
-- ==== Proof.ReferenceRows.lean ====
/-
  The reference's values, read one entry at a time at exact arithmetic.

  Every 16384-row matrix the reference computes has, at (r, c), a value that depends only on row r of the two
  embeddings: a host product is the sum over the contracted axis, a bias broadcast reads the bias at the column,
  a row sum broadcast back reads the row's sum (the host sum starts from the zero word, which is the real 0). So
  each is the specification's row function of row r, with the transposed (and sliced) weight matrices the reference
  itself builds; the concatenation puts the first normalised matrix in columns 0..255 and the second in 256..511.
-/
import proofs.«115380_j25056839205944_1_alg».proof.Proof.Gen.ReferenceIdeal.Read
import proofs.«115380_j25056839205944_1_alg».proof.Proof.FusionSpec
import proofs.«115380_j25056839205944_1_alg».proof.Proof.LibIndexEq
import Idealize.ShloMosaic.Lib.Pipeline.Value
import Idealize.ShloMosaic.PureOps.Ideal.Laws

noncomputable section

namespace Cert.ReferenceIdeal.Rows

open Cert.ReferenceIdeal Cert.ReferenceIdeal.Gen Cert.ReferenceIdeal.Read Idealize.ShloMosaic Idealize.ShloMosaic.ValueIdx FusionSpec

variable (x0 : (⟨S16384x2048, .f32⟩ : BufTy).Contents (Elt Ideal))
  (x1 : (⟨S16384x128, .f32⟩ : BufTy).Contents (Elt Ideal))
  (x2 : (⟨S256x2048, .f32⟩ : BufTy).Contents (Elt Ideal))
  (x3 : (⟨S256, .f32⟩ : BufTy).Contents (Elt Ideal))
  (x4 : (⟨S256x128, .f32⟩ : BufTy).Contents (Elt Ideal))
  (x5 : (⟨S256, .f32⟩ : BufTy).Contents (Elt Ideal))
  (x6 : (⟨S768x256, .f32⟩ : BufTy).Contents (Elt Ideal))
  (x7 : (⟨S768, .f32⟩ : BufTy).Contents (Elt Ideal))
  (x8 : (⟨S256x256, .f32⟩ : BufTy).Contents (Elt Ideal))
  (x9 : (⟨S256, .f32⟩ : BufTy).Contents (Elt Ideal))
  (x10 : (⟨S768x256, .f32⟩ : BufTy).Contents (Elt Ideal))
  (x11 : (⟨S768, .f32⟩ : BufTy).Contents (Elt Ideal))
  (x12 : (⟨S256x256, .f32⟩ : BufTy).Contents (Elt Ideal))
  (x13 : (⟨S256, .f32⟩ : BufTy).Contents (Elt Ideal))
  (x14 : (⟨S256, .f32⟩ : BufTy).Contents (Elt Ideal))
  (x15 : (⟨S256, .f32⟩ : BufTy).Contents (Elt Ideal))

/-! ## The projections and the two attention branches -/

/-- The image projection at (r, c): the dense layer of row r of the image embedding. -/
theorem imgProj_apply (r : Fin 16384) (c : Fin 256) :
    val_main_v4 (F := Ideal) x0 x2 x3 (ix2 r c) = dense (fun k => x0 (ix2 r k)) (val_main_v0 (F := Ideal) x2) (x3) c := by
  rw [val_main_v4_apply, val_main_v1_apply, val_main_v3_apply, val_main_v2_apply]
  have el : ∀ k, lidx_main_v1 (ix2 r c) k = ix2 r k := fun k => LibIndexEq.idx2_eq _ _ _ rfl rfl
  have er : ∀ k, ridx_main_v1 (ix2 r c) k = ix2 k c := fun k => LibIndexEq.idx2_eq _ _ _ rfl rfl
  have eb : idx_main_v2 (idx_main_v3 (ix2 r c)) = ix1 c := LibIndexEq.idx1_eq _ _ rfl
  simp only [el, er, eb]
  rfl

/-- The table projection at (r, c): the dense layer of row r of the table embedding. -/
theorem tabProj_apply (r : Fin 16384) (c : Fin 256) :
    val_main_v9 (F := Ideal) x1 x4 x5 (ix2 r c) = dense (fun k => x1 (ix2 r k)) (val_main_v5 (F := Ideal) x4) (x5) c := by
  rw [val_main_v9_apply, val_main_v6_apply, val_main_v8_apply, val_main_v7_apply]
  have el : ∀ k, lidx_main_v6 (ix2 r c) k = ix2 r k := fun k => LibIndexEq.idx2_eq _ _ _ rfl rfl
  have er : ∀ k, ridx_main_v6 (ix2 r c) k = ix2 k c := fun k => LibIndexEq.idx2_eq _ _ _ rfl rfl
  have eb : idx_main_v7 (idx_main_v8 (ix2 r c)) = ix1 c := LibIndexEq.idx1_eq _ _ rfl
  simp only [el, er, eb]
  rfl

/-- The value projection of the table projection (image attends to table). -/
theorem imgValue_apply (r : Fin 16384) (c : Fin 256) :
    val_main_v16 (F := Ideal) x1 x4 x5 x6 x7 (ix2 r c) = dense (fun k => val_main_v9 (F := Ideal) x1 x4 x5 (ix2 r k)) (val_main_v12 (F := Ideal) x6) (val_main_v11 (F := Ideal) x7) c := by
  rw [val_main_v16_apply, val_main_v13_apply, val_main_v15_apply, val_main_v14_apply]
  have el : ∀ k, lidx_main_v13 (ix2 r c) k = ix2 r k := fun k => LibIndexEq.idx2_eq _ _ _ rfl rfl
  have er : ∀ k, ridx_main_v13 (ix2 r c) k = ix2 k c := fun k => LibIndexEq.idx2_eq _ _ _ rfl rfl
  have eb : idx_main_v14 (idx_main_v15 (ix2 r c)) = ix1 c := LibIndexEq.idx1_eq _ _ rfl
  simp only [el, er, eb]
  rfl

/-- Its output projection. -/
theorem imgOut_apply (r : Fin 16384) (c : Fin 256) :
    val_main_v21 (F := Ideal) x1 x4 x5 x6 x7 x8 x9 (ix2 r c) = dense (fun k => val_main_v16 (F := Ideal) x1 x4 x5 x6 x7 (ix2 r k)) (val_main_v17 (F := Ideal) x8) (x9) c := by
  rw [val_main_v21_apply, val_main_v18_apply, val_main_v20_apply, val_main_v19_apply]
  have el : ∀ k, lidx_main_v18 (ix2 r c) k = ix2 r k := fun k => LibIndexEq.idx2_eq _ _ _ rfl rfl
  have er : ∀ k, ridx_main_v18 (ix2 r c) k = ix2 k c := fun k => LibIndexEq.idx2_eq _ _ _ rfl rfl
  have eb : idx_main_v19 (idx_main_v20 (ix2 r c)) = ix1 c := LibIndexEq.idx1_eq _ _ rfl
  simp only [el, er, eb]
  rfl

/-- The value projection of the image projection (table attends to image). -/
theorem tabValue_apply (r : Fin 16384) (c : Fin 256) :
    val_main_v53 (F := Ideal) x0 x2 x3 x10 x11 (ix2 r c) = dense (fun k => val_main_v4 (F := Ideal) x0 x2 x3 (ix2 r k)) (val_main_v49 (F := Ideal) x10) (val_main_v48 (F := Ideal) x11) c := by
  rw [val_main_v53_apply, val_main_v50_apply, val_main_v52_apply, val_main_v51_apply]
  have el : ∀ k, lidx_main_v50 (ix2 r c) k = ix2 r k := fun k => LibIndexEq.idx2_eq _ _ _ rfl rfl
  have er : ∀ k, ridx_main_v50 (ix2 r c) k = ix2 k c := fun k => LibIndexEq.idx2_eq _ _ _ rfl rfl
  have eb : idx_main_v51 (idx_main_v52 (ix2 r c)) = ix1 c := LibIndexEq.idx1_eq _ _ rfl
  simp only [el, er, eb]
  rfl

/-- Its output projection. -/
theorem tabOut_apply (r : Fin 16384) (c : Fin 256) :
    val_main_v58 (F := Ideal) x0 x2 x3 x10 x11 x12 x13 (ix2 r c) = dense (fun k => val_main_v53 (F := Ideal) x0 x2 x3 x10 x11 (ix2 r k)) (val_main_v54 (F := Ideal) x12) (x13) c := by
  rw [val_main_v58_apply, val_main_v55_apply, val_main_v57_apply, val_main_v56_apply]
  have el : ∀ k, lidx_main_v55 (ix2 r c) k = ix2 r k := fun k => LibIndexEq.idx2_eq _ _ _ rfl rfl
  have er : ∀ k, ridx_main_v55 (ix2 r c) k = ix2 k c := fun k => LibIndexEq.idx2_eq _ _ _ rfl rfl
  have eb : idx_main_v56 (idx_main_v57 (ix2 r c)) = ix1 c := LibIndexEq.idx1_eq _ _ rfl
  simp only [el, er, eb]
  rfl

/-! ## The two layer normalisations -/

/-- The first normalised matrix at (r, c): the layer normalisation of row r of its input. -/
theorem normLeft_apply (r : Fin 16384) (c : Fin 256) :
    val_main_v46 (F := Ideal) x0 x1 x2 x3 x4 x5 x6 x7 x8 x9 x14 x15 (ix2 r c) = layerNorm (fun k => val_main_v22 (F := Ideal) x0 x1 x2 x3 x4 x5 x6 x7 x8 x9 (ix2 r k)) x14 x15 c := by
  have h1 : ∀ k, idx_main_v23 (idx_main_v24 (idx_main_v34 (ix2 r c))) k = ix2 r k := fun k => LibIndexEq.idx2_eq _ _ _ rfl rfl
  have h2 : ∀ k, idx_main_v30 (idx_main_v31 (idx_main_v39 (ix2 r c))) k = ix2 r k := fun k => LibIndexEq.idx2_eq _ _ _ rfl rfl
  have h3 : ∀ k k', idx_main_v23 (idx_main_v24 (idx_main_v27 (ix2 r k))) k' = ix2 r k' := fun k k' => LibIndexEq.idx2_eq _ _ _ rfl rfl
  have h4 : idx_main_v41 (idx_main_v42 (ix2 r c)) = ix1 c := LibIndexEq.idx1_eq _ _ rfl
  have h5 : idx_main_v44 (idx_main_v45 (ix2 r c)) = ix1 c := LibIndexEq.idx1_eq _ _ rfl
  simp only [val_main_v46_apply, val_main_v43_apply, val_main_v42_apply, val_main_v41_apply, val_main_v45_apply, val_main_v44_apply, val_main_v40_apply, val_main_v35_apply, val_main_v34_apply, val_main_v26_apply, val_main_v24_apply, val_main_v25_apply, val_main_v23_apply, val_main_v39_apply, val_main_v38_apply, val_main_v37_apply, val_main_v33_apply, val_main_v31_apply, val_main_v32_apply, val_main_v30_apply, val_main_v29_apply, val_main_v28_apply, val_main_v27_apply, val_main_v36_apply,
    val_main_cst_apply, val_main_cst_0_apply, val_main_cst_1_apply, val_main_cst_2_apply, val_main_cst_3_apply,
    h1, h2, h3, h4, h5, Ideal.ofBits_def, Ideal.ofBits_zero_f32, zero_add, Ideal.addf_def, Ideal.subf_def, Ideal.mulf_def,
    Ideal.hostDivf_def, Ideal.hostUnary_rsqrt_def]
  unfold layerNorm rowVar rowMean width eps
  rfl

/-- The second normalised matrix at (r, c): the layer normalisation of row r of its input. -/
theorem normRight_apply (r : Fin 16384) (c : Fin 256) :
    val_main_v83 (F := Ideal) x0 x1 x2 x3 x4 x5 x10 x11 x12 x13 x14 x15 (ix2 r c) = layerNorm (fun k => val_main_v59 (F := Ideal) x0 x1 x2 x3 x4 x5 x10 x11 x12 x13 (ix2 r k)) x14 x15 c := by
  have h1 : ∀ k, idx_main_v60 (idx_main_v61 (idx_main_v71 (ix2 r c))) k = ix2 r k := fun k => LibIndexEq.idx2_eq _ _ _ rfl rfl
  have h2 : ∀ k, idx_main_v67 (idx_main_v68 (idx_main_v76 (ix2 r c))) k = ix2 r k := fun k => LibIndexEq.idx2_eq _ _ _ rfl rfl
  have h3 : ∀ k k', idx_main_v60 (idx_main_v61 (idx_main_v64 (ix2 r k))) k' = ix2 r k' := fun k k' => LibIndexEq.idx2_eq _ _ _ rfl rfl
  have h4 : idx_main_v78 (idx_main_v79 (ix2 r c)) = ix1 c := LibIndexEq.idx1_eq _ _ rfl
  have h5 : idx_main_v81 (idx_main_v82 (ix2 r c)) = ix1 c := LibIndexEq.idx1_eq _ _ rfl
  simp only [val_main_v83_apply, val_main_v80_apply, val_main_v79_apply, val_main_v78_apply, val_main_v82_apply, val_main_v81_apply, val_main_v77_apply, val_main_v72_apply, val_main_v71_apply, val_main_v63_apply, val_main_v61_apply, val_main_v62_apply, val_main_v60_apply, val_main_v76_apply, val_main_v75_apply, val_main_v74_apply, val_main_v70_apply, val_main_v68_apply, val_main_v69_apply, val_main_v67_apply, val_main_v66_apply, val_main_v65_apply, val_main_v64_apply, val_main_v73_apply,
    val_main_cst_4_apply, val_main_cst_5_apply, val_main_cst_6_apply, val_main_cst_7_apply, val_main_cst_8_apply,
    h1, h2, h3, h4, h5, Ideal.ofBits_def, Ideal.ofBits_zero_f32, zero_add, Ideal.addf_def, Ideal.subf_def, Ideal.mulf_def,
    Ideal.hostDivf_def, Ideal.hostUnary_rsqrt_def]
  unfold layerNorm rowVar rowMean width eps
  rfl

end Cert.ReferenceIdeal.Rows

end
-- ==== Proof.ReferenceFused.lean ====
/-
  The reference's result is the specification's function of its arguments.

  The concatenation along the columns reads the first normalised matrix at a column below 256 and the second,
  256 columns to the left, otherwise; each is the layer normalisation of the matching branch plus its residual.
-/
import proofs.«115380_j25056839205944_1_alg».proof.Proof.ReferenceRows

noncomputable section

namespace Cert.ReferenceIdeal.Rows

open Cert.ReferenceIdeal Cert.ReferenceIdeal.Gen Cert.ReferenceIdeal.Read Idealize.ShloMosaic Idealize.ShloMosaic.ValueIdx FusionSpec

variable (x0 : (⟨S16384x2048, .f32⟩ : BufTy).Contents (Elt Ideal))
  (x1 : (⟨S16384x128, .f32⟩ : BufTy).Contents (Elt Ideal))
  (x2 : (⟨S256x2048, .f32⟩ : BufTy).Contents (Elt Ideal))
  (x3 : (⟨S256, .f32⟩ : BufTy).Contents (Elt Ideal))
  (x4 : (⟨S256x128, .f32⟩ : BufTy).Contents (Elt Ideal))
  (x5 : (⟨S256, .f32⟩ : BufTy).Contents (Elt Ideal))
  (x6 : (⟨S768x256, .f32⟩ : BufTy).Contents (Elt Ideal))
  (x7 : (⟨S768, .f32⟩ : BufTy).Contents (Elt Ideal))
  (x8 : (⟨S256x256, .f32⟩ : BufTy).Contents (Elt Ideal))
  (x9 : (⟨S256, .f32⟩ : BufTy).Contents (Elt Ideal))
  (x10 : (⟨S768x256, .f32⟩ : BufTy).Contents (Elt Ideal))
  (x11 : (⟨S768, .f32⟩ : BufTy).Contents (Elt Ideal))
  (x12 : (⟨S256x256, .f32⟩ : BufTy).Contents (Elt Ideal))
  (x13 : (⟨S256, .f32⟩ : BufTy).Contents (Elt Ideal))
  (x14 : (⟨S256, .f32⟩ : BufTy).Contents (Elt Ideal))
  (x15 : (⟨S256, .f32⟩ : BufTy).Contents (Elt Ideal))

/-- The weights as the reference builds them: each weight matrix transposed, the two attention input
    projections cut down to their value rows first. -/
abbrev refWeights (x2 : (⟨S256x2048, .f32⟩ : BufTy).Contents (Elt Ideal)) (x3 : (⟨S256, .f32⟩ : BufTy).Contents (Elt Ideal)) (x4 : (⟨S256x128, .f32⟩ : BufTy).Contents (Elt Ideal)) (x5 : (⟨S256, .f32⟩ : BufTy).Contents (Elt Ideal)) (x6 : (⟨S768x256, .f32⟩ : BufTy).Contents (Elt Ideal)) (x7 : (⟨S768, .f32⟩ : BufTy).Contents (Elt Ideal)) (x8 : (⟨S256x256, .f32⟩ : BufTy).Contents (Elt Ideal)) (x9 : (⟨S256, .f32⟩ : BufTy).Contents (Elt Ideal)) (x10 : (⟨S768x256, .f32⟩ : BufTy).Contents (Elt Ideal)) (x11 : (⟨S768, .f32⟩ : BufTy).Contents (Elt Ideal)) (x12 : (⟨S256x256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) : Weights :=
  ⟨val_main_v0 (F := Ideal) x2, x3, val_main_v5 (F := Ideal) x4, x5, val_main_v12 (F := Ideal) x6, val_main_v11 (F := Ideal) x7,
   val_main_v17 (F := Ideal) x8, x9, val_main_v49 (F := Ideal) x10, val_main_v48 (F := Ideal) x11, val_main_v54 (F := Ideal) x12, x13, x14, x15⟩

/-- The reference's result at (r, c): the specification's result row of row r, at column c. -/
theorem result_apply (r : Fin 16384) (cc : Fin 512) :
    val_main_v84 (F := Ideal) x0 x1 x2 x3 x4 x5 x6 x7 x8 x9 x10 x11 x12 x13 x14 x15 (ix2 r cc)
      = fusedRow (refWeights x2 x3 x4 x5 x6 x7 x8 x9 x10 x11 x12 x13 x14 x15) (fun k => x0 (ix2 r k)) (fun k => x1 (ix2 r k)) cc := by
  unfold val_main_v84
  by_cases h : cc.val < 256
  · refine (concatenate_pair_apply_left (s₁ := S16384x256) (s₂ := S16384x256) _ _ _ _ (ix2 r cc) rfl (ix2 r (⟨cc.val, h⟩ : Fin 256)) (fun b => ?_)).trans ?_
    · match b with
      | ⟨0, _⟩ => rfl
      | ⟨1, _⟩ => rfl
    · rw [normLeft_apply, fusedRow_left _ _ _ cc (⟨cc.val, h⟩ : Fin 256) rfl]
      simp only [val_main_v22_apply, imgOut_apply, imgValue_apply, tabProj_apply, imgProj_apply, Ideal.addf_def]
      rfl
  · have hj : cc.val < 512 := cc.isLt
    refine (concatenate_pair_apply_right (s₁ := S16384x256) (s₂ := S16384x256) _ _ _ _ (ix2 r cc) rfl rfl (ix2 r (⟨cc.val - 256, by omega⟩ : Fin 256)) (fun b hb => ?_) ?_).trans ?_
    · match b, hb with
      | ⟨0, _⟩, _ => rfl
      | ⟨1, _⟩, hb => exact absurd rfl hb
    · show (cc.val - 256) + 256 = cc.val
      omega
    · rw [normRight_apply, fusedRow_right _ _ _ cc (⟨cc.val - 256, by omega⟩ : Fin 256) (by show cc.val = 256 + (cc.val - 256); omega)]
      simp only [val_main_v59_apply, tabOut_apply, tabValue_apply, tabProj_apply, imgProj_apply, Ideal.addf_def]
      rfl

/-- The reference's result array is the specification's function of its arguments. -/
theorem result_eq :
    val_main_v84 (F := Ideal) x0 x1 x2 x3 x4 x5 x6 x7 x8 x9 x10 x11 x12 x13 x14 x15 = fused x0 x1 (refWeights x2 x3 x4 x5 x6 x7 x8 x9 x10 x11 x12 x13 x14 x15) := by
  funext j
  obtain ⟨r, cc, rfl⟩ : ∃ (r : Fin 16384) (cc : Fin 512), j = ix2 r cc := ⟨j 0, j 1, eq_ix2 j⟩
  exact result_apply x0 x1 x2 x3 x4 x5 x6 x7 x8 x9 x10 x11 x12 x13 x14 x15 r cc

end Cert.ReferenceIdeal.Rows

end
-- ==== Proof.lean ====
/-
  The certificate: a fused two-way attention block with one key, on TPU against its jnp reference.

  Both programs project an image embedding (2048 wide) and a table embedding (128 wide) to width 256. Softmax over
  a single key is 1, so "image attends to table" is the value and output projections of the table projection; the
  image projection is added and the row is layer-normalised; "table attends to image" is the same with the roles
  exchanged; the result row is the two normalised rows side by side. The kernel does this 512 rows at a time with
  every weight resident, in bf16 products accumulated in f32; at exact arithmetic a change of float format is the
  identity and a product into the zero accumulator is the plain sum, so each program's result at row r is one
  function of row r of the two embeddings and the weights (FusionSpec). No algebraic law is needed to join the two
  sides, hence no finiteness: operation for operation the two are the same, the same two constants (256 and the
  word for 1e-5) on both sides. The kernel's side: each value of the body read at an entry (KernelRows), the two
  stores as one function of the block (KernelBlock), the 32 blocks as the array (KernelArray). The reference's side:
  each host value read at an entry (ReferenceRows), the concatenation (ReferenceFused). The idealisation rewrote
  nothing, so its conjunct is trivial; the three frames are the generated ones.
-/
import proofs.«115380_j25056839205944_1_alg».proof.Defs
import proofs.«115380_j25056839205944_1_alg».proof.Proof.Gen.Kernel
import proofs.«115380_j25056839205944_1_alg».proof.Proof.Gen.Kernel.Skeleton
import proofs.«115380_j25056839205944_1_alg».proof.Proof.Gen.Kernel.Launch
import proofs.«115380_j25056839205944_1_alg».proof.Proof.Gen.Kernel.Points
import proofs.«115380_j25056839205944_1_alg».proof.Proof.Gen.Kernel.Frame
import proofs.«115380_j25056839205944_1_alg».proof.Proof.Gen.KernelIdeal
import proofs.«115380_j25056839205944_1_alg».proof.Proof.Gen.KernelIdeal.Skeleton
import proofs.«115380_j25056839205944_1_alg».proof.Proof.Gen.KernelIdeal.Launch
import proofs.«115380_j25056839205944_1_alg».proof.Proof.Gen.KernelIdeal.Points
import proofs.«115380_j25056839205944_1_alg».proof.Proof.Gen.KernelIdeal.Frame
import proofs.«115380_j25056839205944_1_alg».proof.Proof.Gen.ReferenceIdeal
import proofs.«115380_j25056839205944_1_alg».proof.Proof.Gen.Pre_finite_inputs
import proofs.«115380_j25056839205944_1_alg».proof.Proof.Gen.KernelIdeal.Value
import proofs.«115380_j25056839205944_1_alg».proof.Proof.Gen.ReferenceIdeal.Run
import proofs.«115380_j25056839205944_1_alg».proof.Proof.Gen.ReferenceIdeal.Read
import proofs.«115380_j25056839205944_1_alg».proof.Proof.KernelArray
import proofs.«115380_j25056839205944_1_alg».proof.Proof.ReferenceFused
import Idealize.ShloMosaic.Adequacy
import Idealize.ShloMosaic.Init

noncomputable section

namespace Cert.Proof

open Idealize.ShloMosaic Idealize.ShloMosaic.TcCoe Idealize.SL.Sem FusionSpec

/-- The word-level kernel runs and leaves its arguments unchanged. -/
theorem frame_kernel : Cert.frame_Kernel := fun m ρ _ => Cert.Kernel.Gen.frame m ρ

/-- So does the idealised kernel. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end with the specification's function of the (agreeing) arguments in their result arrays. -/
theorem algebraic : Cert.algebraic_KernelIdeal_ReferenceIdeal := by
  intro m ρ m' ρ' _ hagree
  refine ⟨fun c => fused (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.KernelIdeal.Rows.kernelWeights m c), Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq, Cert.ReferenceIdeal.Rows.result_eq]
  obtain ⟨h0, h1, h2, h3, h4, h5, h6, h7, h8, h9, h10, h11, h12, h13, h14, h15⟩ := hagree c
  rw [h0, h1, h2, h3, h4, h5, h6, h7, h8, h9, h10, h11, h12, h13, h14, h15]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
